-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S20000x128 .f32) (main_arg1 : IVec S2x640000 32) (main_arg2 : FVec F S128x128 .f32) (main_arg3 : FVec F S128 .f32) (main_arg4 : FVec F S128x128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S20000 : Shape := ⟨1, ![20000]⟩
abbrev S20000x1 : Shape := ⟨2, ![20000, 1]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 33
  | .vmem => 11
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S20000x128, .f32⟩
  | .hbm, ⟨20, _⟩ => ⟨S640000x1, .i32⟩
  | .hbm, ⟨21, _⟩ => ⟨S20000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S20000, .f32⟩
  | .hbm, ⟨26, _⟩ => ⟨S640000x1, .i32⟩
  | .hbm, ⟨27, _⟩ => ⟨S20000, .f32⟩
  | .hbm, ⟨28, _⟩ => ⟨S128x128, .f32⟩
  | .hbm, ⟨29, _⟩ => ⟨S128x128, .f32⟩
  | .hbm, ⟨30, _⟩ => ⟨S20000x1, .f32⟩
  | .hbm, ⟨31, _⟩ => ⟨S1x128, .f32⟩
  | .hbm, ⟨32, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S_S20000 : S_.BroadcastsInDim S20000 (![] : Fin 0 → Fin S20000.rank)
  transposes_S128x128_S128x128_1_0 : S128x128.Transposes [1, 0] S128x128
  shapeCasts_S20000_S20000x1 : S20000.ShapeCasts S20000x1
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S20000x1.size a
  hwx0_1 : ∀ i : grid0.Coords, EltTy.bits .f32 = 32 ∨ (Rect.block (s := S20000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S20000x128.size a
  hwx0_2 : ∀ i : grid0.Coords, EltTy.bits .f32 = 32 ∨ (Rect.block (s := S20000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S20000x128.size a
  hwx0_6 : ∀ i : grid0.Coords, EltTy.bits .f32 = 32 ∨ (Rect.block (s := S20000x128) S2000x128.size (cc0_transform_6 i) (hinb0_6 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S20000 : Shape := ⟨1, ![20000]⟩
abbrev S20000x1 : Shape := ⟨2, ![20000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S20000x128, .f32⟩
  | .hbm, ⟨20, _⟩ => ⟨S640000x1, .i32⟩
  | .hbm, ⟨21, _⟩ => ⟨S20000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S20000, .f32⟩
  | .hbm, ⟨26, _⟩ => ⟨S640000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000x1, .f32⟩
  | .hbm, ⟨32, _⟩ => ⟨S20000x128, .f32⟩
  | .hbm, ⟨33, _⟩ => ⟨S20000x128, .f32⟩
  | .hbm, ⟨34, _⟩ => ⟨S128x128, .f32⟩
  | .hbm, ⟨35, _⟩ => ⟨S20000x128, .f32⟩
  | .hbm, ⟨36, _⟩ => ⟨S1x128, .f32⟩
  | .hbm, ⟨37, _⟩ => ⟨S20000x128, .f32⟩
  | .hbm, ⟨38, _⟩ => ⟨S20000x128, .f32⟩
  | .hbm, ⟨39, _⟩ => ⟨S128x128, .f32⟩
  | .hbm, ⟨40, _⟩ => ⟨S20000x128, .f32⟩
  | .hbm, ⟨41, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S128x128_S128x128_1_0 : S128x128.Transposes [1, 0] S128x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  dot_S20000x128_S128x128_S20000x128_1_0_0_1_n_n_wf : DotDims.WF S20000x128 S128x128 S20000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.LayerSpec.lean ====
/-
  One graph-convolution layer with mean aggregation, as a function of whole arrays over the extended reals.

  For node `r` and output channel `j`,

      out[r, j] = ( Σ_k (S[r, k] / max(C[r], 1)) · A[k, j]  +  Σ_k X[r, k] · B[k, j] )  +  b[j]

  where `S` is the sum of the neighbours' feature rows, `C` the number of neighbours, `X` the node's own
  features, `A` and `B` the two (already transposed) weight matrices and `b` the bias.  Nothing here is
  rounded: the quotient is the extended reals' quotient, the sums are exact.

  The two programs compared add the three summands in different orders; on the extended reals addition is
  commutative and associative, also at the infinities, so both orders give the same number (`layerAt_bias_inside`).
-/
import Idealize.ShloMosaic.PureOps.Ideal
import Idealize.ShloMosaic.Lib.ValueIdx

noncomputable section

open scoped BigOperators

namespace Cert.MeanLayer

open Idealize.ShloMosaic Idealize.ShloMosaic.ValueIdx

/-- The number one, as the float word both programs write for it. -/
abbrev one : EReal := Ideal.ofBits .f32 0x3F800000#32

/-- The aggregated term of node `r`, channel `j`: the neighbours' mean (sum over count, the count floored at one)
    through the first weight matrix. -/
def aggAt (S : (⟨2, ![20000, 128]⟩ : Shape).Idx → EReal) (C : (⟨1, ![20000]⟩ : Shape).Idx → EReal)
    (A : (⟨2, ![128, 128]⟩ : Shape).Idx → EReal) (r : Fin 20000) (j : Fin 128) : EReal :=
  ∑ k : Fin 128, Ideal.div (S (ix2 r k)) (max (C (ix1 r)) one) * A (ix2 k j)

/-- The node's own term: its feature row through the second weight matrix. -/
def selfAt (X : (⟨2, ![20000, 128]⟩ : Shape).Idx → EReal) (B : (⟨2, ![128, 128]⟩ : Shape).Idx → EReal)
    (r : Fin 20000) (j : Fin 128) : EReal :=
  ∑ k : Fin 128, X (ix2 r k) * B (ix2 k j)

/-- The layer's output at node `r`, channel `j`: aggregated term plus own term, then the bias. -/
def layerAt (S X : (⟨2, ![20000, 128]⟩ : Shape).Idx → EReal) (C : (⟨1, ![20000]⟩ : Shape).Idx → EReal)
    (A B : (⟨2, ![128, 128]⟩ : Shape).Idx → EReal) (b : (⟨1, ![128]⟩ : Shape).Idx → EReal)
    (r : Fin 20000) (j : Fin 128) : EReal :=
  (aggAt S C A r j + selfAt X B r j) + b (ix1 j)

/-- The layer's output as one array. -/
def layer (S X : (⟨2, ![20000, 128]⟩ : Shape).Idx → EReal) (C : (⟨1, ![20000]⟩ : Shape).Idx → EReal)
    (A B : (⟨2, ![128, 128]⟩ : Shape).Idx → EReal) (b : (⟨1, ![128]⟩ : Shape).Idx → EReal) :
    (⟨2, ![20000, 128]⟩ : Shape).Idx → EReal :=
  fun i => layerAt S X C A B b (i 0) (i 1)

/-- Adding the bias before the node's own term instead of after it gives the same number: addition of extended
    reals is commutative and associative. -/
theorem layerAt_bias_inside (S X : (⟨2, ![20000, 128]⟩ : Shape).Idx → EReal) (C : (⟨1, ![20000]⟩ : Shape).Idx → EReal)
    (A B : (⟨2, ![128, 128]⟩ : Shape).Idx → EReal) (b : (⟨1, ![128]⟩ : Shape).Idx → EReal)
    (r : Fin 20000) (j : Fin 128) :
    (aggAt S C A r j + b (ix1 j)) + selfAt X B r j = layerAt S X C A B b r j := by
  unfold layerAt
  exact add_right_comm _ _ _

end Cert.MeanLayer

end
-- ==== Proof.LayerRef.lean ====
/-
  The reference program's result, read one operation at a time, is the layer of `LayerSpec`.

  Its last stage is `(agg · A + b) + X · B`; read at an index `(r, j)`:
    * each matrix product is a sum over the contracted axis `k` of the left operand at `(r, k)` times the right at `(k, j)`;
    * the left operand of the first product is the quotient of the neighbour sum at `(r, k)` by the floored count,
      which the program broadcasts from `[20000]` through `[20000, 1]` to `[20000, 128]`: at `(r, k)` it is the
      count of node `r`, floored at one;
    * the bias is broadcast from `[128]` through `[1, 128]` to `[20000, 128]`: at `(r, j)` it is `b[j]`.
  The only difference from `layerAt` is the place of the bias in the sum (`layerAt_bias_inside`).
  The neighbour sum, the count and the two transposed weight matrices are kept as the stages that compute them.
-/
import proofs.«105417_j31284541784246_2_alg».proof.Proof.Gen.ReferenceIdeal.Read
import proofs.«105417_j31284541784246_2_alg».proof.Proof.LayerSpec

noncomputable section

open scoped BigOperators

namespace Cert.MeanLayer.Ref

open Idealize.ShloMosaic Idealize.ShloMosaic.ValueIdx Cert.ReferenceIdeal Cert.ReferenceIdeal.Read Cert.MeanLayer

theorem result_eq (x0 : (⟨S20000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4
      = layer (val_main_v13 (F := Ideal) x0 x1) x0 (val_main_v17 (F := Ideal) x1) (val_main_v23 (F := Ideal) x2)
          (val_main_v28 (F := Ideal) x4) x3 := by
  funext i
  obtain ⟨r, j, rfl⟩ : ∃ (r : Fin 20000) (j : Fin 128), i = ix2 r j := ⟨i 0, i 1, eq_ix2 i⟩
  have el : ∀ k : Fin 128, lidx_main_v24 (ix2 r j) k = ix2 r k := fun k =>
    funext fun a => Fin.ext (by match a with | ⟨0, _⟩ => rfl | ⟨1, _⟩ => rfl)
  have er : ∀ k : Fin 128, ridx_main_v24 (ix2 r j) k = ix2 k j := fun k =>
    funext fun a => Fin.ext (by match a with | ⟨0, _⟩ => rfl | ⟨1, _⟩ => rfl)
  have el' : ∀ k : Fin 128, lidx_main_v29 (ix2 r j) k = ix2 r k := fun k =>
    funext fun a => Fin.ext (by match a with | ⟨0, _⟩ => rfl | ⟨1, _⟩ => rfl)
  have er' : ∀ k : Fin 128, ridx_main_v29 (ix2 r j) k = ix2 k j := fun k =>
    funext fun a => Fin.ext (by match a with | ⟨0, _⟩ => rfl | ⟨1, _⟩ => rfl)
  have ec : ∀ k : Fin 128, idx_main_v20 (idx_main_v21 (ix2 r k)) = ix1 r := fun k =>
    funext fun a => Fin.ext (by match a with | ⟨0, _⟩ => rfl)
  have eb : idx_main_v25 (idx_main_v26 (ix2 r j)) = ix1 j :=
    funext fun a => Fin.ext (by match a with | ⟨0, _⟩ => rfl)
  rw [val_main_v30_apply, val_main_v27_apply, val_main_v24_apply, val_main_v29_apply, val_main_v26_apply,
    val_main_v25_apply]
  simp only [el, er, el', er', val_main_v22_apply, val_main_v21_apply, val_main_v20_apply, val_main_v19_apply,
    val_main_v18_apply, val_main_cst_3_apply, ec, eb, Ideal.hostDivf_def, Ideal.maximumf_def, Ideal.addf_def]
  exact layerAt_bias_inside _ _ _ _ _ _ r j

end Cert.MeanLayer.Ref

end
-- ==== Proof.LayerPayload.lean ====
/-
  The kernel body's arithmetic, read at one entry of its output block.

  The body loads a block of 2000 rows of the neighbour sums `s`, the same rows of the counts `c` (one column)
  and of the features `x`, both whole weight matrices `a`, `b` and the bias row `d`, and stores

      (s / max(c, 1)) · a  +  x · b  +  d

  with the count column and the bias row broadcast over the block.  At row `p`, column `q` of the block this is

      ( Σ_k (s[p, k] / max(c[p, 0], 1)) · a[k, q]  +  Σ_k x[p, k] · b[k, q] )  +  d[0, q] :

  a matrix product into a zero accumulator is the plain sum over the contracted axis, narrowing a float's
  format changes nothing at the ideal values, and a shape cast to the same shape is the identity.
-/
import proofs.«105417_j31284541784246_2_alg».proof.Proof.Gen.KernelIdeal.Skeleton
import proofs.«105417_j31284541784246_2_alg».proof.Proof.LayerSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.MeanLayer.Body

open Idealize.ShloMosaic Idealize.ShloMosaic.ValueIdx Cert.KernelIdeal Cert.KernelIdeal.Gen Cert.MeanLayer
open Cert.KernelIdeal.Facts₀

variable [Cert.KernelIdeal.Facts]

/-- The product's left operand index at output `i` and contraction index `κ`: row of `i`, … -/
theorem lhs_row (i : S2000x128.Idx) (κ : dot_S2000x128_S128x128_S2000x128_1_0_0_1_n_n.contr.Idx) : (dot_S2000x128_S128x128_S2000x128_1_0_0_1_n_n.lhsIdx i κ 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … column `κ`. -/
theorem lhs_col (i : S2000x128.Idx) (κ : dot_S2000x128_S128x128_S2000x128_1_0_0_1_n_n.contr.Idx) : (dot_S2000x128_S128x128_S2000x128_1_0_0_1_n_n.lhsIdx i κ 1).val = (κ ⟨0, by decide⟩).val :=
  dot_S2000x128_S128x128_S2000x128_1_0_0_1_n_n.lhsIdx_val_of_single rfl i κ
/-- The right operand index: row `κ`, … -/
theorem rhs_row (i : S2000x128.Idx) (κ : dot_S2000x128_S128x128_S2000x128_1_0_0_1_n_n.contr.Idx) : (dot_S2000x128_S128x128_S2000x128_1_0_0_1_n_n.rhsIdx i κ 0).val = (κ ⟨0, by decide⟩).val :=
  dot_S2000x128_S128x128_S2000x128_1_0_0_1_n_n.rhsIdx_val_of_single rfl i κ
/-- … column of `i`. -/
theorem rhs_col (i : S2000x128.Idx) (κ : dot_S2000x128_S128x128_S2000x128_1_0_0_1_n_n.contr.Idx) : (dot_S2000x128_S128x128_S2000x128_1_0_0_1_n_n.rhsIdx i κ 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The block's matrix product into a zero accumulator, at row `p` and column `q`: the sum over the contracted
    axis of the left operand's row `p` against the right operand's column `q`. -/
theorem matmul_block_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- A column `[2000, 1]` broadcast over `[2000, 128]` reads, at `(p, q)`, the column's entry of row `p`. -/
theorem broadcast_column_apply {α : Type} (v : S2000x1.Idx → α) (h : S2000x1.Broadcasts S2000x128) (p : Fin 2000) (q : Fin 128) :
    broadcastTo S2000x128 v h (ix2 p q) = v (ix2 p (0 : Fin 1)) := by
  refine broadcastTo_apply v h (ix2 p q) (ix2 p (0 : Fin 1)) fun ax => ?_
  match ax with
  | ⟨0, _⟩ =>
    show p.val = if (2000 : Nat) = 1 then 0 else p.val
    rw [if_neg (by decide)]
  | ⟨1, _⟩ =>
    show (0 : Nat) = if (1 : Nat) = 1 then 0 else q.val
    rw [if_pos rfl]

/-- The stored value at row `p`, column `q` of the block. -/
theorem payload_apply (c : Vec Ideal S2000x1 .f32) (s x : Vec Ideal S2000x128 .f32) (a b : Vec Ideal S128x128 .f32)
    (d : Vec Ideal S1x128 .f32) (p : Fin 2000) (q : Fin 128) :
    k0_pay1 c s x a b d (ix2 p q)
      = (∑ k : Fin 128, Ideal.div (s (ix2 p k)) (max (c (ix2 p (0 : Fin 1))) one) * a (ix2 k q)
          + ∑ k : Fin 128, x (ix2 p k) * b (ix2 k q)) + d (ix2 (0 : Fin 1) q) := by
  unfold k0_pay1
  simp only [shapeCast_self]
  rw [addf_apply, addf_apply, matmul_block_apply, matmul_block_apply, broadcastTo_1b_ab_apply]
  simp only [truncf_apply, divf_apply, broadcast_column_apply, maximumf_apply, broadcast_apply]
  rfl

end Cert.MeanLayer.Body

end
-- ==== Proof.LayerFound.lean ====
/-
  Two of the arrays the kernel's region finds were laid out by the host just before it: the count column is the
  count vector with a unit axis appended, the bias row is the bias vector with a unit axis prepended.  Read at an
  index, row `r` of the column is entry `r` of the vector and column `q` of the row is entry `q` of the vector.
-/
import proofs.«105417_j31284541784246_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

open scoped BigOperators

namespace Cert.MeanLayer.Kernel

open Cert.KernelIdeal Cert.KernelIdeal.Gen Idealize.ShloMosaic Idealize.ShloMosaic.TcCoe Idealize.SL.Sem
open Idealize.ShloMosaic.ValueIdx Idealize.ShloMosaic.StableHlo Cert.MeanLayer
open Idealize.ShloMosaic.Pipeline (Dat)

variable (m : (ℓ : Loc nD τ sig) → Buf (Elt Ideal) ℓ) (ρ : Dev nD → PrngReg)

/-! ## The two arrays the host re-laid -/

/-- The count column the region finds is the count vector cast to `[20000, 1]`. -/
theorem count_column (c : Dev nD) :
    (V m c main_v20 : S20000x1.Idx → EReal)
      = shapeCast S20000x1 (V m c main_v17 : S20000.Idx → EReal) shapeCasts_S20000_S20000x1 := by
  dsimp only [V, hostOps0]; after_results_simp <;> rfl

/-- The bias row the region finds is the bias vector cast to `[1, 128]`. -/
theorem bias_row (c : Dev nD) :
    (V m c main_v21 : S1x128.Idx → EReal)
      = shapeCast S1x128 (m ((c : Thread nD τ).loc main_arg3) : S128.Idx → EReal) shapeCasts_S128_S1x128 := by
  dsimp only [V, hostOps0]; after_results_simp <;> rfl

/-- Row `r` of the count column is entry `r` of the count vector. -/
theorem count_column_apply (c : Dev nD) (r : Fin 20000) :
    (V m c main_v20 : S20000x1.Idx → EReal) (ix2 r (0 : Fin 1)) = (V m c main_v17 : S20000.Idx → EReal) (ix1 r) := by
  rw [count_column]
  exact shapeCast_apply (s := S20000) (t := S20000x1) _ shapeCasts_S20000_S20000x1 (ix2 r (0 : Fin 1)) (ix1 r) (by
    rw [Shape.rowMajor_val_one, Shape.rowMajor_val_two]
    show r.val = r.val * 1 + 0
    omega)

/-- Column `q` of the bias row is entry `q` of the bias vector. -/
theorem bias_row_apply (c : Dev nD) (q : Fin 128) :
    (V m c main_v21 : S1x128.Idx → EReal) (ix2 (0 : Fin 1) q)
      = (m ((c : Thread nD τ).loc main_arg3) : S128.Idx → EReal) (ix1 q) := by
  rw [bias_row]
  exact shapeCast_a_1a_apply _ _ 0 q

end Cert.MeanLayer.Kernel

end
-- ==== Proof.LayerReads.lean ====
/-
  Where each grid point's blocks lie in their arrays.

  The grid has ten points.  Point `t` is handed rows `2000·t … 2000·t + 1999` of the neighbour sums, of the count
  column and of the features, and both weight matrices and the bias row whole; it writes the same rows of the
  result.  So, for any contents `A` of the array behind a window, entry `(p, k)` of a row-blocked window's block
  is `A (2000·t + p, k)`, and entry `(k, q)` of a resident window's block is `A (k, q)`.
-/
import proofs.«105417_j31284541784246_2_alg».proof.Proof.Gen.KernelIdeal.Frame
import Idealize.ShloMosaic.Lib.ValueIdx
import Idealize.ShloMosaic.Lib.Pipeline.Value

noncomputable section

open scoped BigOperators

namespace Cert.MeanLayer.Kernel

open Cert.KernelIdeal Cert.KernelIdeal.Gen Idealize.ShloMosaic Idealize.ShloMosaic.TcCoe Idealize.SL.Sem
open Idealize.ShloMosaic.ValueIdx Idealize.ShloMosaic.StableHlo Cert.MeanLayer
open Idealize.ShloMosaic.Pipeline (Dat)

/-! ## Where each point's blocks lie -/

/-- The printed index maps over the ten points: the row-blocked windows (sums, counts, features, result) are at
    block `(t, 0)`, the resident ones (weights, bias) at block `(0, 0)`. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- The node that row `p` of point `t`'s block is. -/
def node (t : Fin cfg0.N) (p : Fin 2000) : Fin 20000 :=
  ⟨t.val * 2000 + p.val, by have h := t.isLt; have hN : cfg0.N = 10 := N_0; omega⟩

/-- Point `t`'s block of the neighbour sums is rows `2000·t …` of the array. -/
theorem sums_read (A : S20000x128.Idx → EReal) (t : Fin cfg0.N) (p : Fin 2000) (k : Fin 128) :
    ((cfg0.win 0).blk t).view.read (Elt Ideal) A (ix2 p k) = A (ix2 (node t p) k) := by
  obtain ⟨⟨e0, e1⟩, -⟩ := index_facts t
  rw [View.read_apply]
  show A _ = A _
  refine congrArg A (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- Point `t`'s block of the count column is the same rows of the column. -/
theorem counts_read (A : S20000x1.Idx → EReal) (t : Fin cfg0.N) (p : Fin 2000) :
    ((cfg0.win 1).blk t).view.read (Elt Ideal) A (ix2 p (0 : Fin 1)) = A (ix2 (node t p) (0 : Fin 1)) := by
  obtain ⟨-, ⟨e0, e1⟩, -⟩ := index_facts t
  rw [View.read_apply]
  show A _ = A _
  refine congrArg A (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 1 + 1 * 0 = 0; rw [e1]

/-- Point `t`'s block of the features is the same rows of the features. -/
theorem features_read (A : S20000x128.Idx → EReal) (t : Fin cfg0.N) (p : Fin 2000) (k : Fin 128) :
    ((cfg0.win 2).blk t).view.read (Elt Ideal) A (ix2 p k) = A (ix2 (node t p) k) := by
  obtain ⟨-, -, ⟨e0, e1⟩, -⟩ := index_facts t
  rw [View.read_apply]
  show A _ = A _
  refine congrArg A (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 128 + 1 * k.val = k.val; rw [e1]; omega

/-- Every point is handed the first weight matrix whole. -/
theorem weights_l_read (A : S128x128.Idx → EReal) (t : Fin cfg0.N) (k q : Fin 128) :
    ((cfg0.win 3).blk t).view.read (Elt Ideal) A (ix2 k q) = A (ix2 k q) := by
  obtain ⟨-, -, -, ⟨e0, e1⟩, -⟩ := index_facts t
  rw [View.read_apply]
  show A _ = A _
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- Every point is handed the second weight matrix whole. -/
theorem weights_r_read (A : S128x128.Idx → EReal) (t : Fin cfg0.N) (k q : Fin 128) :
    ((cfg0.win 4).blk t).view.read (Elt Ideal) A (ix2 k q) = A (ix2 k q) := by
  obtain ⟨-, -, -, -, ⟨e0, e1⟩, -⟩ := index_facts t
  rw [View.read_apply]
  show A _ = A _
  refine congrArg A (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- Every point is handed the bias row whole. -/
theorem bias_read (A : S1x128.Idx → EReal) (t : Fin cfg0.N) (q : Fin 128) :
    ((cfg0.win 5).blk t).view.read (Elt Ideal) A (ix2 (0 : Fin 1) q) = A (ix2 (0 : Fin 1) q) := by
  obtain ⟨-, -, -, -, -, ⟨e0, e1⟩, -⟩ := index_facts t
  rw [View.read_apply]
  show A _ = A _
  refine congrArg A (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

/-- Entry `(p, q)` of the block point `t` writes back is entry `(2000·t + p, q)` of the result array. -/
theorem result_place (A : S20000x128.Idx → EReal) (t : Fin cfg0.N) (p : Fin 2000) (q : Fin 128) :
    ((cfg0.win 6).blk t).view.read (Elt Ideal) A (ix2 p q) = A (ix2 (node t p) q) := by
  obtain ⟨-, -, -, -, -, -, ⟨e0, e1⟩⟩ := index_facts t
  rw [View.read_apply]
  show A _ = A _
  refine congrArg A (funext fun a => Fin.ext ?_)
  match a with
  | ⟨0, _⟩ => show win0_6.index t (0 : Fin 2) * 2000 + 1 * p.val = t.val * 2000 + p.val; rw [e0]; omega
  | ⟨1, _⟩ => show win0_6.index t (1 : Fin 2) * 128 + 1 * q.val = q.val; rw [e1]; omega

end Cert.MeanLayer.Kernel

end
-- ==== Proof.LayerBlocks.lean ====
/-
  The kernel's result array, whole.

  Read at row `p`, column `q` of its block, what grid point `t` writes back is the layer of `LayerSpec` at node
  `2000·t + p`, channel `q`, of the arrays behind the windows (the body's arithmetic at an entry, the blocks'
  places in their arrays, and the two re-laid arrays read at an index).  The ten blocks tile the result array —
  the block that holds row `r` is that of point `r / 2000` — so after the run the result array is the layer,
  everywhere.
-/
import proofs.«105417_j31284541784246_2_alg».proof.Proof.Gen.KernelIdeal.Value
import proofs.«105417_j31284541784246_2_alg».proof.Proof.LayerPayload
import proofs.«105417_j31284541784246_2_alg».proof.Proof.LayerSpec
import proofs.«105417_j31284541784246_2_alg».proof.Proof.LayerFound
import proofs.«105417_j31284541784246_2_alg».proof.Proof.LayerReads

noncomputable section

open scoped BigOperators

namespace Cert.MeanLayer.Kernel

open Cert.KernelIdeal Cert.KernelIdeal.Gen Idealize.ShloMosaic Idealize.ShloMosaic.TcCoe Idealize.SL.Sem
open Idealize.ShloMosaic.ValueIdx Idealize.ShloMosaic.StableHlo Cert.MeanLayer
open Idealize.ShloMosaic.Pipeline (Dat)

variable (m : (ℓ : Loc nD τ sig) → Buf (Elt Ideal) ℓ) (ρ : Dev nD → PrngReg)

/-! ## One entry of one block -/

/-- If the loaded blocks are the named rows and entries of whole arrays, the stored entry `(p, q)` is the layer
    of those arrays at node `r`, channel `j`. -/
theorem entry_eq (S X : (⟨2, ![20000, 128]⟩ : Shape).Idx → EReal) (C : (⟨1, ![20000]⟩ : Shape).Idx → EReal)
    (A B : (⟨2, ![128, 128]⟩ : Shape).Idx → EReal) (bv : (⟨1, ![128]⟩ : Shape).Idx → EReal)
    (c : Vec Ideal S2000x1 .f32) (s x : Vec Ideal S2000x128 .f32) (a b : Vec Ideal S128x128 .f32) (d : Vec Ideal S1x128 .f32)
    (p : Fin 2000) (q : Fin 128) (r : Fin 20000) (j : Fin 128)
    (hs : ∀ k : Fin 128, s (ix2 p k) = S (ix2 r k)) (hx : ∀ k : Fin 128, x (ix2 p k) = X (ix2 r k))
    (hc : c (ix2 p (0 : Fin 1)) = C (ix1 r))
    (ha : ∀ k : Fin 128, a (ix2 k q) = A (ix2 k j)) (hb : ∀ k : Fin 128, b (ix2 k q) = B (ix2 k j))
    (hd : d (ix2 (0 : Fin 1) q) = bv (ix1 j)) :
    k0_pay1 c s x a b d (ix2 p q) = layerAt S X C A B bv r j := by
  rw [Body.payload_apply]
  unfold layerAt aggAt selfAt
  simp only [hs, hx, hc, ha, hb, hd]

/-! ## One block, for any contents of the arrays behind the windows -/

theorem hz : (![0, 0] : Fin 2 → Nat) = fun _ => 0 := funext fun a => by fin_cases a <;> rfl

/-- Whatever the six arrays behind the input windows hold — the count column `A1` being a vector `C` with a unit axis
    appended, the bias row `A5` a vector `bv` with a unit axis prepended —, the body's result on point `t`'s blocks
    of them is block `t` of their layer. -/
theorem block_eq (A0 : S20000x128.Idx → EReal) (A1 : S20000x1.Idx → EReal) (A2 : S20000x128.Idx → EReal)
    (A3 A4 : S128x128.Idx → EReal) (A5 : S1x128.Idx → EReal) (C : S20000.Idx → EReal) (bv : S128.Idx → EReal)
    (hC : ∀ r : Fin 20000, A1 (ix2 r (0 : Fin 1)) = C (ix1 r)) (hb : ∀ q : Fin 128, A5 (ix2 (0 : Fin 1) q) = bv (ix1 q))
    (t : Fin cfg0.N) :
    (cfg0.win 6).cut (grid0.coords t)
        (out0_6 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (layer A0 A2 C A3 A4 bv) := by
  unfold out0_6
  rw [View.canon_unit_zero hz]
  simp only [View.ld_unit_zero (S := S2000x1) hz, View.ld_unit_zero (S := S2000x128) hz,
    View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  rw [result_place]
  show k0_pay1 (((cfg0.win 1).blk t).view.read (Elt Ideal) A1) (((cfg0.win 0).blk t).view.read (Elt Ideal) A0)
      (((cfg0.win 2).blk t).view.read (Elt Ideal) A2) (((cfg0.win 3).blk t).view.read (Elt Ideal) A3)
      (((cfg0.win 4).blk t).view.read (Elt Ideal) A4) (((cfg0.win 5).blk t).view.read (Elt Ideal) A5) (ix2 p q)
    = layerAt A0 A2 C A3 A4 bv (node t p) q
  exact entry_eq A0 A2 C A3 A4 bv
    (((cfg0.win 1).blk t).view.read (Elt Ideal) A1) (((cfg0.win 0).blk t).view.read (Elt Ideal) A0)
    (((cfg0.win 2).blk t).view.read (Elt Ideal) A2) (((cfg0.win 3).blk t).view.read (Elt Ideal) A3)
    (((cfg0.win 4).blk t).view.read (Elt Ideal) A4) (((cfg0.win 5).blk t).view.read (Elt Ideal) A5)
    p q (node t p) q
    (fun k => sums_read A0 t p k) (fun k => features_read A2 t p k)
    ((counts_read A1 t p).trans (hC (node t p)))
    (fun k => weights_l_read A3 t k q) (fun k => weights_r_read A4 t k q)
    ((bias_read A5 t q).trans (hb q))

/-! ## The blocks, the cover, the array -/

/-- The layer of the arrays as the region finds them. -/
abbrev result (c : Dev nD) : S20000x128.Idx → EReal :=
  layer (V m c main_v13) (V m c main_arg0) (V m c main_v17) (V m c main_v18) (V m c main_v19)
    (m ((c : Thread nD τ).loc main_arg3))

/-- What point `t` writes back is block `t` of `result`. -/
theorem flushed_eq (c : Dev nD) (t : Fin cfg0.N) :
    (dats m 0 c).flushed 6 t = ((cfg0.win 6).blk t).view.read (Elt Ideal) (result m c) :=
  (Value.flushed6 m c t).trans
    (block_eq (V m c main_v13) (V m c main_v20) (V m c main_arg0) (V m c main_v18) (V m c main_v19) (V m c main_v21)
      (V m c main_v17) (m ((c : Thread nD τ).loc main_arg3)) (count_column_apply m c) (bias_row_apply m c) t)

/-- An index of the result array is in point `t`'s block iff each coordinate is in the block's range. -/
theorem mem_block (t : Fin cfg0.N) (i : S20000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v22).slice (win0_6.rect t)).set ↔ _
  rw [View.set_slice_whole, Rect.mem_set_unit]
  exact Iff.rfl

/-- Every node's row is in the block of the point `row / 2000`. -/
theorem covered (i : S20000x128.Idx) :
    ∃ t : Fin cfg0.N, (cfg0.win 6).flush t = true ∧ i ∈ ((cfg0.win 6).blk t).view.set := by
  have h0 : (i 0).val < 20000 := (i 0).isLt
  have h1 : (i 1).val < 128 := (i 1).isLt
  obtain ⟨t, ht⟩ : ∃ t : Fin cfg0.N, t.val = (i 0).val / 2000 :=
    ⟨⟨(i 0).val / 2000, by rw [show cfg0.N = 10 from N_0]; omega⟩, rfl⟩
  obtain ⟨-, -, -, -, -, -, ⟨e0, e1⟩⟩ := index_facts t
  refine ⟨t, flush0_6 t, ?_⟩
  rw [mem_block]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 128 ≤ (i 1).val ∧ (i 1).val < win0_6.index t (1 : Fin 2) * 128 + 128
    rw [e1]; omega

/-- After the run the result array is the layer of the arrays the region found. -/
theorem final (c : Dev nD) : (dats m 0 c).arrAt 6 cfg0.N = result m c :=
  (dats m 0 c).arrAt_eq_of_cover 6 (result m c) (fun t _ => flushed_eq m c t) covered

/-- The kernel's run, with its result array named. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.MeanLayer.Kernel

end
-- ==== Proof.LayerBridge.lean ====
/-
  The arrays the kernel's region finds, named by the reference's stages.

  Before their last, differing steps the two programs run the same host operations on the same arguments: the
  gather of the neighbours' feature rows and their scatter-add into per-node sums, the scatter-add of ones into
  per-node counts, and the two weight transposes.  So the neighbour sums, the counts and the transposed weights
  the kernel's region finds are the reference's stages of those names, of the kernel's own arguments — the
  operations agree term by term.  With that, the layer of the arrays the region finds is the layer of the
  reference's stages.
-/
import proofs.«105417_j31284541784246_2_alg».proof.Proof.Gen.ReferenceIdeal.Read
import proofs.«105417_j31284541784246_2_alg».proof.Proof.LayerBlocks

noncomputable section

namespace Cert.MeanLayer.Bridge

open Cert.KernelIdeal Cert.KernelIdeal.Gen Idealize.ShloMosaic Idealize.ShloMosaic.TcCoe Idealize.SL.Sem
open Idealize.ShloMosaic.StableHlo Cert.MeanLayer

variable (m : (ℓ : Loc nD τ sig) → Buf (Elt Ideal) ℓ)

/-- The neighbour sums the region finds are the reference's sums of the same arguments. -/
theorem found_sums (c : Dev nD) :
    (V m c main_v13 : S20000x128.Idx → EReal)
      = Cert.ReferenceIdeal.Read.val_main_v13 (F := Ideal) (m ((c : Thread nD τ).loc main_arg0)) (m ((c : Thread nD τ).loc main_arg1)) := by
  dsimp only [V, hostOps0]; after_results_simp <;> rfl

/-- The counts the region finds are the reference's counts of the same argument. -/
theorem found_counts (c : Dev nD) :
    (V m c main_v17 : S20000.Idx → EReal)
      = Cert.ReferenceIdeal.Read.val_main_v17 (F := Ideal) (m ((c : Thread nD τ).loc main_arg1)) := by
  dsimp only [V, hostOps0]; after_results_simp <;> rfl

/-- The first transposed weight matrix the region finds is the reference's. -/
theorem found_weights_l (c : Dev nD) :
    (V m c main_v18 : S128x128.Idx → EReal)
      = Cert.ReferenceIdeal.Read.val_main_v23 (F := Ideal) (m ((c : Thread nD τ).loc main_arg2)) := by
  dsimp only [V, hostOps0]; after_results_simp <;> rfl

/-- The second transposed weight matrix the region finds is the reference's. -/
theorem found_weights_r (c : Dev nD) :
    (V m c main_v19 : S128x128.Idx → EReal)
      = Cert.ReferenceIdeal.Read.val_main_v28 (F := Ideal) (m ((c : Thread nD τ).loc main_arg4)) := by
  dsimp only [V, hostOps0]; after_results_simp <;> rfl

/-- The kernel's result array is the layer of the reference's stages of the kernel's arguments. -/
theorem result_eq (c : Dev nD) :
    Kernel.result m c
      = layer (Cert.ReferenceIdeal.Read.val_main_v13 (F := Ideal) (m ((c : Thread nD τ).loc main_arg0)) (m ((c : Thread nD τ).loc main_arg1)))
          (m ((c : Thread nD τ).loc main_arg0))
          (Cert.ReferenceIdeal.Read.val_main_v17 (F := Ideal) (m ((c : Thread nD τ).loc main_arg1)))
          (Cert.ReferenceIdeal.Read.val_main_v23 (F := Ideal) (m ((c : Thread nD τ).loc main_arg2)))
          (Cert.ReferenceIdeal.Read.val_main_v28 (F := Ideal) (m ((c : Thread nD τ).loc main_arg4)))
          (m ((c : Thread nD τ).loc main_arg3)) := by
  show layer (V m c main_v13) (V m c main_arg0) (V m c main_v17) (V m c main_v18) (V m c main_v19)
    (m ((c : Thread nD τ).loc main_arg3)) = _
  rw [found_sums, found_counts, found_weights_l, found_weights_r, V_main_arg0]

end Cert.MeanLayer.Bridge

end
-- ==== Proof.lean ====
/-
  One graph-convolution layer with mean aggregation: a fused kernel against its array-library reference.

  Both programs first gather every edge's source feature row and scatter-add the rows into per-node sums `S`,
  scatter-add ones into per-node counts `C`, and transpose the two weight matrices (`A`, `B`).  Then

      reference:  out = ((S / max(C, 1)) · A + b) + X · B      on whole arrays,
      kernel:     out = ((S / max(C, 1)) · A + X · B) + b      block by block, ten blocks of 2000 rows,

  with the count broadcast along each row and the bias along each column.  Over the extended reals — floats exact,
  a change of float format the identity, a matrix product the plain sum over the contracted axis — both are, at
  node `r` and channel `j`,

      Σ_k (S[r, k] / max(C[r], 1)) · A[k, j]  +  Σ_k X[r, k] · B[k, j]  +  b[j],

  the three summands added in two different orders; addition of extended reals is commutative and associative
  (also at the infinities), so the two results are equal entry by entry.  No finiteness of the inputs is used.

  The modules: `LayerSpec` states the layer as one function of whole arrays and the reordering of the sum;
  `LayerRef` reads the reference's last stages at an index; `LayerPayload` reads the kernel body's arithmetic at
  an entry of its block; `LayerFound` and `LayerReads` say what each grid point is handed; `LayerBlocks` puts the
  ten written blocks together into the whole result array; `LayerBridge` identifies the shared host stages of
  the two programs.  The kernel's idealization rewrote nothing, so there is nothing to preserve beyond the
  programs' own text; the three programs' runs terminate and leave their arguments as they were.
-/
import proofs.«105417_j31284541784246_2_alg».proof.Defs
import proofs.«105417_j31284541784246_2_alg».proof.Proof.Gen.Kernel
import proofs.«105417_j31284541784246_2_alg».proof.Proof.Gen.Kernel.Skeleton
import proofs.«105417_j31284541784246_2_alg».proof.Proof.Gen.Kernel.Launch
import proofs.«105417_j31284541784246_2_alg».proof.Proof.Gen.Kernel.Points
import proofs.«105417_j31284541784246_2_alg».proof.Proof.Gen.Kernel.Frame
import proofs.«105417_j31284541784246_2_alg».proof.Proof.Gen.KernelIdeal
import proofs.«105417_j31284541784246_2_alg».proof.Proof.Gen.KernelIdeal.Skeleton
import proofs.«105417_j31284541784246_2_alg».proof.Proof.Gen.KernelIdeal.Launch
import proofs.«105417_j31284541784246_2_alg».proof.Proof.Gen.KernelIdeal.Points
import proofs.«105417_j31284541784246_2_alg».proof.Proof.Gen.KernelIdeal.Frame
import proofs.«105417_j31284541784246_2_alg».proof.Proof.Gen.ReferenceIdeal
import proofs.«105417_j31284541784246_2_alg».proof.Proof.Gen.KernelIdeal.Value
import proofs.«105417_j31284541784246_2_alg».proof.Proof.Gen.ReferenceIdeal.Run
import proofs.«105417_j31284541784246_2_alg».proof.Proof.Gen.ReferenceIdeal.Read
import proofs.«105417_j31284541784246_2_alg».proof.Proof.Gen.Pre_finite_inputs
import proofs.«105417_j31284541784246_2_alg».proof.Proof.LayerRef
import proofs.«105417_j31284541784246_2_alg».proof.Proof.LayerBridge
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the kernel's result array is the layer of the arrays its region finds,
    the reference's result the layer with the bias added one step earlier; the arrays found are the reference's
    own stages of the same arguments, and the order of the additions does not matter. -/
theorem algebraic : Cert.algebraic_KernelIdeal_ReferenceIdeal := by
  intro m ρ m' ρ' _ hagree
  refine ⟨fun c => Cert.MeanLayer.Kernel.result m c, Cert.MeanLayer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.MeanLayer.Ref.result_eq, (hagree c).1, (hagree c).2.1,
    (hagree c).2.2.1, (hagree c).2.2.2.1, (hagree c).2.2.2.2]
  exact (Cert.MeanLayer.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
